-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S2000x512 : Shape := ⟨2, ![2000, 512]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 111
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S100000, .f32⟩
  | .hbm, ⟨104, _⟩ => ⟨S100000x1, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S2000x512_S512x128_S2000x128_1_0_0_1_n_n_wf : DotDims.WF S2000x512 S512x128 S2000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S100000, .f32⟩
  | .hbm, ⟨104, _⟩ => ⟨S100000x1, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x512_S512x128_S100000x128_1_0_0_1_n_n_wf : DotDims.WF S100000x512 S512x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run, with its result read. The program is six segments: host operations, the first
  product's region, host operations (twice: the body of @main and the called relu), the second product's region, host
  operations. Every weakly fair execution terminates without a fault, and in the final state every unscoped buffer holds
  the last boundary's contents (`W6`): in particular the result buffer, and each argument still holds what it was
  launched with.
-/
import proofs.«102432_j28398323761180_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer read: it ends at the last boundary's contents, the arguments as launched. -/
theorem run : θ_run defs (onTc (τ := τ) (main (F := F))) ⟨m, fun _ => 0, ρ⟩ (fun r => ∀ c : Dev nD,
      r.2.mem ((c.tc : Thread nD τ).loc main_v85) = W6 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v85 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KernelRun

end
-- ==== Proof.FoldEntry.lean ====
/-
  The kernel's buffers when its first region is entered. The first stretch of host operations computes, from the edge
  list alone, the edge sources, the edge targets and the inverse square roots of the degrees (in-degree plus one); it
  writes no argument. Each is, operation for operation, the reference's stage of the same name.
-/
import proofs.«102432_j28398323761180_1_alg».proof.Proof.Gen.KernelIdeal.Frame
import proofs.«102432_j28398323761180_1_alg».proof.Proof.Gen.ReferenceIdeal.Read
import Idealize.ShloMosaic.Lib.StableHlo.Run

set_option maxRecDepth 16384
set_option Elab.async false

noncomputable section

namespace Cert.KernelIdeal.Fold

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v10 val_main_v11 val_main_v48 val_main_v49 val_main_v85)

variable (m : (ℓ : Loc nD τ sig) → Buf (Elt Ideal) ℓ) (ρ : Dev nD → PrngReg)

/-! ## The first stretch: what the first region is entered with -/

theorem entry_x (c : Dev nD) : W1 m ρ c (Proc.devRef .tc main_arg0) = m ((c.tc : Thread nD τ).loc main_arg0) := by
  show StableHlo.after hostOps0 (W0 m ρ c) (Proc.devRef .tc main_arg0) = _
  after_results_simp <;> rfl

theorem entry_w1 (c : Dev nD) : W1 m ρ c (Proc.devRef .tc main_arg2) = m ((c.tc : Thread nD τ).loc main_arg2) := by
  show StableHlo.after hostOps0 (W0 m ρ c) (Proc.devRef .tc main_arg2) = _
  after_results_simp <;> rfl

theorem entry_b1 (c : Dev nD) : W1 m ρ c (Proc.devRef .tc main_arg3) = m ((c.tc : Thread nD τ).loc main_arg3) := by
  show StableHlo.after hostOps0 (W0 m ρ c) (Proc.devRef .tc main_arg3) = _
  after_results_simp <;> rfl

theorem entry_w2 (c : Dev nD) : W1 m ρ c (Proc.devRef .tc main_arg4) = m ((c.tc : Thread nD τ).loc main_arg4) := by
  show StableHlo.after hostOps0 (W0 m ρ c) (Proc.devRef .tc main_arg4) = _
  after_results_simp <;> rfl

theorem entry_b2 (c : Dev nD) : W1 m ρ c (Proc.devRef .tc main_arg5) = m ((c.tc : Thread nD τ).loc main_arg5) := by
  show StableHlo.after hostOps0 (W0 m ρ c) (Proc.devRef .tc main_arg5) = _
  after_results_simp <;> rfl

/-- The edge sources. -/
theorem entry_src (c : Dev nD) :
    W1 m ρ c (Proc.devRef .tc main_v1) = val_main_v1 (F := Ideal) (m ((c.tc : Thread nD τ).loc main_arg1)) := by
  show StableHlo.after hostOps0 (W0 m ρ c) (Proc.devRef .tc main_v1) = _
  after_results_simp <;> rfl

/-- The edge targets. -/
theorem entry_dst (c : Dev nD) :
    W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl

/-- The inverse square roots of the degrees (in-degree plus one). -/
theorem entry_dinv (c : Dev nD) :
    W1 m ρ c (Proc.devRef .tc main_v10) = val_main_v10 (F := Ideal) (m ((c.tc : Thread nD τ).loc main_arg1)) := by
  show StableHlo.after hostOps0 (W0 m ρ c) (Proc.devRef .tc main_v10) = _
  after_results_simp <;> rfl

end Cert.KernelIdeal.Fold

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.BlockProduct.lean ====
/-
  One grid point's work, read at an entry. Each of the two kernels loads a block of rows `x` ([2000, K]) and the whole
  weight matrix `w` ([K, N]), rounds both to bf16 (the identity on the extended reals), multiplies them into a zero
  accumulator and stores the [2000, N] product. So the stored block at entry (r, q) is the sum over k of
  x(r, k) * w(k, q): row r of the block against column q of the weights.
-/
import proofs.«102432_j28398323761180_1_alg».proof.Proof.Gen.KernelIdeal.Skeleton
import proofs.«102432_j28398323761180_1_alg».proof.Proof.LibDot
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.ValueIdx

/-- The first kernel's dimension numbers are those of a plain rows-by-columns product [2000, 512] x [512, 128]. -/
theorem plain_first : Cert.LibDot.Plain (M := 2000) (K := 512) (N := 128) dot_S2000x512_S512x128_S2000x128_1_0_0_1_n_n where
  hrank := rfl
  hs := rfl
  hl0 := fun j k => by
    unfold DotDims.lhsIdx
    rw [dif_neg (show ¬(0 : Fin S2000x512.rank) ∈ dot_S2000x512_S512x128_S2000x128_1_0_0_1_n_n.lhsBatch by decide),
      dif_pos (show (0 : Fin S2000x512.rank) ∈ dot_S2000x512_S512x128_S2000x128_1_0_0_1_n_n.lhsNonContracting by decide)]
    rfl
  hl1 := fun j k => dot_S2000x512_S512x128_S2000x128_1_0_0_1_n_n.lhsIdx_val_of_single rfl j k
  hr0 := fun j k => dot_S2000x512_S512x128_S2000x128_1_0_0_1_n_n.rhsIdx_val_of_single rfl j k
  hr1 := fun j k => by
    unfold DotDims.rhsIdx
    rw [dif_neg (show ¬(1 : Fin S512x128.rank) ∈ dot_S2000x512_S512x128_S2000x128_1_0_0_1_n_n.rhsBatch by decide),
      dif_pos (show (1 : Fin S512x128.rank) ∈ dot_S2000x512_S512x128_S2000x128_1_0_0_1_n_n.rhsNonContracting by decide)]
    rfl

/-- The second kernel's dimension numbers are those of a plain rows-by-columns product [2000, 128] x [128, 64]. -/
theorem plain_second : Cert.LibDot.Plain (M := 2000) (K := 128) (N := 64) dot_S2000x128_S128x64_S2000x64_1_0_0_1_n_n where
  hrank := rfl
  hs := rfl
  hl0 := fun j k => by
    unfold DotDims.lhsIdx
    rw [dif_neg (show ¬(0 : Fin S2000x128.rank) ∈ dot_S2000x128_S128x64_S2000x64_1_0_0_1_n_n.lhsBatch by decide),
      dif_pos (show (0 : Fin S2000x128.rank) ∈ dot_S2000x128_S128x64_S2000x64_1_0_0_1_n_n.lhsNonContracting by decide)]
    rfl
  hl1 := fun j k => dot_S2000x128_S128x64_S2000x64_1_0_0_1_n_n.lhsIdx_val_of_single rfl j k
  hr0 := fun j k => dot_S2000x128_S128x64_S2000x64_1_0_0_1_n_n.rhsIdx_val_of_single rfl j k
  hr1 := fun j k => by
    unfold DotDims.rhsIdx
    rw [dif_neg (show ¬(1 : Fin S128x64.rank) ∈ dot_S2000x128_S128x64_S2000x64_1_0_0_1_n_n.rhsBatch by decide),
      dif_pos (show (1 : Fin S128x64.rank) ∈ dot_S2000x128_S128x64_S2000x64_1_0_0_1_n_n.rhsNonContracting by decide)]
    rfl

/-- The first kernel's stored block at entry (r, q): row r of the loaded rows against column q of the weights. -/
theorem first_at (x : Vec Ideal S2000x512 .f32) (w : Vec Ideal S512x128 .f32) (r : Fin 2000) (q : Fin 128) :
    k0_pay1 (F := Ideal) x w (ix2 r q) = ∑ k : Fin 512, x (ix2 r k) * w (ix2 k q) := by
  unfold k0_pay1
  exact Cert.LibDot.matmul_ix2 plain_first none _ _ r q

/-- The second kernel's stored block at entry (r, q): the same, after a cast of the rows to their own shape. -/
theorem second_at (x : Vec Ideal S2000x128 .f32) (w : Vec Ideal S128x64 .f32) (r : Fin 2000) (q : Fin 64) :
    k1_pay1 (F := Ideal) x w (ix2 r q) = ∑ k : Fin 128, x (ix2 r k) * w (ix2 k q) := by
  unfold k1_pay1
  rw [shapeCast_self]
  exact Cert.LibDot.matmul_ix2 plain_second none _ _ r q

end Cert.KernelIdeal.BlockProduct

end
-- ==== Proof.RowTiles.lean ====
/-
  From blocks to the whole array. Each kernel's grid has 50 points; point t works on rows 2000·t … 2000·t + 1999:
  it stages that block of the row operand, the whole weight matrix, and writes back that block of the result. The
  50 row blocks tile the 100000 rows, so after the region the result array holds, at every entry (R, q), the sum over k
  of rows(R, k) * weights(k, q) — which is what a host matrix product of the two whole arrays holds there. The
  statements are over the buffer contents `V` the region is entered with, whatever they are.
-/
import proofs.«102432_j28398323761180_1_alg».proof.Proof.Gen.KernelIdeal.Frame
import proofs.«102432_j28398323761180_1_alg».proof.Proof.BlockProduct
import Idealize.ShloMosaic.Lib.Pipeline.Value

set_option maxRecDepth 16384

noncomputable section

namespace Cert.KernelIdeal.RowTiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first product: rows [100000, 512], weights [512, 128] -/

/-- The printed index maps over the grid: the row operand and the result move with the point along the rows, the
    weights stay. -/
theorem index_first : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host product of the row operand and the weights the first region is entered with. -/
abbrev productFirst (d : DotDims ⟨2, ![100000, 512]⟩ ⟨2, ![512, 128]⟩ ⟨2, ![100000, 128]⟩) (c : Dev nD) : FVec Ideal S100000x128 .f32 :=
  Host.dotGeneral (F := Ideal) (φ₁ := .f32) (φ₂ := .f32) d none (V c main_arg0 : FVec Ideal S100000x512 .f32) (V c main_arg2 : FVec Ideal S512x128 .f32)

/-- The staged row block at (r, k) is the row operand at (2000·t + r, k). -/
theorem rows_first (c : Dev nD) (t : Fin cfg0.N) (r : Fin 2000) (k : Fin 512) (R : Fin 100000)
    (hR : R.val = t.val * 2000 + r.val) :
    (iblk0 V c 0 t : Vec Ideal S2000x512 .f32) (ix2 r k) = (V c main_arg0 : Vec Ideal S100000x512 .f32) (ix2 R k) := by
  obtain ⟨e0, e1, -⟩ := index_first t
  unfold iblk0
  rw [View.read_apply]
  show V c main_arg0 _ = V c main_arg0 _
  congr 1
  funext a
  apply Fin.ext
  match a with
  | ⟨0, _⟩ => show win0_0.index t (0 : Fin 2) * 2000 + 1 * r.val = R.val; rw [e0, hR]; omega
  | ⟨1, _⟩ => show win0_0.index t (1 : Fin 2) * 512 + 1 * k.val = k.val; rw [e1]; omega

/-- The staged weights at (k, q) are the weight operand at (k, q). -/
theorem weights_first (c : Dev nD) (t : Fin cfg0.N) (k : Fin 512) (q : Fin 128) :
    (iblk0 V c 1 t : Vec Ideal S512x128 .f32) (ix2 k q) = (V c main_arg2 : Vec Ideal S512x128 .f32) (ix2 k q) := by
  obtain ⟨-, -, e2, e3, -⟩ := index_first t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- What point t writes back is block t of the host product of the two whole arrays. -/
theorem flushed_first (d : DotDims ⟨2, ![100000, 512]⟩ ⟨2, ![512, 128]⟩ ⟨2, ![100000, 128]⟩) (hd : Cert.LibDot.Plain d)
    (c : Dev nD) (t : Fin cfg0.N) :
    (dat0 V c).flushed 2 t = ((cfg0.win 2).blk t).view.read (Elt Ideal) (productFirst V d c) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨-, -, -, -, e4, e5⟩ := index_first t
  have hN : cfg0.N = 50 := N_0
  funext j
  obtain ⟨r, q, rfl⟩ : ∃ (r : Fin 2000) (q : Fin 128), j = ix2 r q := ⟨j 0, j 1, eq_ix2 j⟩
  have hR : t.val * 2000 + r.val < 100000 := by have := t.isLt; have := r.isLt; omega
  have hemb : ((cfg0.win 2).blk t).view.emb (ix2 r q) = (ix2 (⟨t.val * 2000 + r.val, hR⟩ : Fin 100000) q : S100000x128.Idx) := by
    funext a
    apply Fin.ext
    match a with
    | ⟨0, _⟩ => show win0_2.index t (0 : Fin 2) * 2000 + 1 * r.val = t.val * 2000 + r.val; rw [e4]; omega
    | ⟨1, _⟩ => show win0_2.index t (1 : Fin 2) * 128 + 1 * q.val = q.val; rw [e5]; omega
  show k0_pay1 (F := Ideal) (iblk0 V c 0 t) (iblk0 V c 1 t) (ix2 r q) = productFirst V d c (((cfg0.win 2).blk t).view.emb (ix2 r q))
  rw [hemb]
  refine (BlockProduct.first_at _ _ r q).trans ?_
  refine Eq.trans ?_ (Cert.LibDot.dotGeneral_ix2 (φ₁ := .f32) (φ₂ := .f32) hd none (V c main_arg0 : FVec Ideal S100000x512 .f32) (V c main_arg2 : FVec Ideal S512x128 .f32) ⟨t.val * 2000 + r.val, hR⟩ q).symm
  refine Finset.sum_congr rfl fun k _ => ?_
  exact congrArg₂ (· * ·) (rows_first V c t r k _ rfl) (weights_first V c t k q)

/-- An index of the result array is in point t's block iff each coordinate is in the block's range on its axis. -/
theorem mem_block_first (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v11).slice (win0_2.rect t)).set ↔ _
  rw [View.set_slice_whole, Rect.mem_set_unit]
  exact Iff.rfl

/-- Every entry of the result is in some point's block: row R is written at point R / 2000. -/
theorem cover_first (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e4, e5⟩ := index_first t
  refine ⟨t, flush0_2 t, ?_⟩
  rw [mem_block_first]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-- After the first region its result array is the host product of the row operand and the weights it was entered with. -/
theorem array_first (d : DotDims ⟨2, ![100000, 512]⟩ ⟨2, ![512, 128]⟩ ⟨2, ![100000, 128]⟩) (hd : Cert.LibDot.Plain d)
    (c : Dev nD) :
    (dat0 V c).arrAt 2 cfg0.N = productFirst V d c :=
  (dat0 V c).arrAt_eq_of_cover 2 (productFirst V d c) (fun t _ => flushed_first V d hd c t) cover_first

/-! ## The second product: rows [100000, 128] (the hidden layer), weights [128, 64] -/

/-- The printed index maps over the second grid: the same movement. -/
theorem index_second : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The host product of the hidden layer and the weights the second region is entered with. -/
abbrev productSecond (d : DotDims ⟨2, ![100000, 128]⟩ ⟨2, ![128, 64]⟩ ⟨2, ![100000, 64]⟩) (c : Dev nD) : FVec Ideal S100000x64 .f32 :=
  Host.dotGeneral (F := Ideal) (φ₁ := .f32) (φ₂ := .f32) d none (V c main_v48 : FVec Ideal S100000x128 .f32) (V c main_arg4 : FVec Ideal S128x64 .f32)

/-- The staged row block at (r, k) is the hidden layer at (2000·t + r, k). -/
theorem rows_second (c : Dev nD) (t : Fin cfg1.N) (r : Fin 2000) (k : Fin 128) (R : Fin 100000)
    (hR : R.val = t.val * 2000 + r.val) :
    (iblk1 V c 0 t : Vec Ideal S2000x128 .f32) (ix2 r k) = (V c main_v48 : Vec Ideal S100000x128 .f32) (ix2 R k) := by
  obtain ⟨e0, e1, -⟩ := index_second t
  unfold iblk1
  rw [View.read_apply]
  show V c main_v48 _ = V c main_v48 _
  congr 1
  funext a
  apply Fin.ext
  match a with
  | ⟨0, _⟩ => show win1_0.index t (0 : Fin 2) * 2000 + 1 * r.val = R.val; rw [e0, hR]; omega
  | ⟨1, _⟩ => show win1_0.index t (1 : Fin 2) * 128 + 1 * k.val = k.val; rw [e1]; omega

/-- The staged weights at (k, q) are the weight operand at (k, q). -/
theorem weights_second (c : Dev nD) (t : Fin cfg1.N) (k : Fin 128) (q : Fin 64) :
    (iblk1 V c 1 t : Vec Ideal S128x64 .f32) (ix2 k q) = (V c main_arg4 : Vec Ideal S128x64 .f32) (ix2 k q) := by
  obtain ⟨-, -, e2, e3, -⟩ := index_second t
  unfold iblk1
  rw [View.read_apply]
  show V c main_arg4 _ = V c main_arg4 _
  congr 1
  funext a
  apply Fin.ext
  match a with
  | ⟨0, _⟩ => show win1_1.index t (0 : Fin 2) * 128 + 1 * k.val = k.val; rw [e2]; omega
  | ⟨1, _⟩ => show win1_1.index t (1 : Fin 2) * 64 + 1 * q.val = q.val; rw [e3]; omega

/-- What point t writes back is block t of the host product of the two whole arrays. -/
theorem flushed_second (d : DotDims ⟨2, ![100000, 128]⟩ ⟨2, ![128, 64]⟩ ⟨2, ![100000, 64]⟩) (hd : Cert.LibDot.Plain d)
    (c : Dev nD) (t : Fin cfg1.N) :
    (dat1 V c).flushed 2 t = ((cfg1.win 2).blk t).view.read (Elt Ideal) (productSecond V d c) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x64) zero_offsets]
  obtain ⟨-, -, -, -, e4, e5⟩ := index_second t
  have hN : cfg1.N = 50 := N_1
  funext j
  obtain ⟨r, q, rfl⟩ : ∃ (r : Fin 2000) (q : Fin 64), j = ix2 r q := ⟨j 0, j 1, eq_ix2 j⟩
  have hR : t.val * 2000 + r.val < 100000 := by have := t.isLt; have := r.isLt; omega
  have hemb : ((cfg1.win 2).blk t).view.emb (ix2 r q) = (ix2 (⟨t.val * 2000 + r.val, hR⟩ : Fin 100000) q : S100000x64.Idx) := by
    funext a
    apply Fin.ext
    match a with
    | ⟨0, _⟩ => show win1_2.index t (0 : Fin 2) * 2000 + 1 * r.val = t.val * 2000 + r.val; rw [e4]; omega
    | ⟨1, _⟩ => show win1_2.index t (1 : Fin 2) * 64 + 1 * q.val = q.val; rw [e5]; omega
  show k1_pay1 (F := Ideal) (iblk1 V c 0 t) (iblk1 V c 1 t) (ix2 r q) = productSecond V d c (((cfg1.win 2).blk t).view.emb (ix2 r q))
  rw [hemb]
  refine (BlockProduct.second_at _ _ r q).trans ?_
  refine Eq.trans ?_ (Cert.LibDot.dotGeneral_ix2 (φ₁ := .f32) (φ₂ := .f32) hd none (V c main_v48 : FVec Ideal S100000x128 .f32) (V c main_arg4 : FVec Ideal S128x64 .f32) ⟨t.val * 2000 + r.val, hR⟩ q).symm
  refine Finset.sum_congr rfl fun k _ => ?_
  exact congrArg₂ (· * ·) (rows_second V c t r k _ rfl) (weights_second V c t k q)

/-- An index of the result array is in point t's block iff each coordinate is in the block's range on its axis. -/
theorem mem_block_second (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v49).slice (win1_2.rect t)).set ↔ _
  rw [View.set_slice_whole, Rect.mem_set_unit]
  exact Iff.rfl

/-- Every entry of the result is in some point's block: row R is written at point R / 2000. -/
theorem cover_second (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e4, e5⟩ := index_second t
  refine ⟨t, flush1_2 t, ?_⟩
  rw [mem_block_second]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 64 ≤ (i 1).val ∧ (i 1).val < win1_2.index t (1 : Fin 2) * 64 + 64
    rw [e5]; omega

/-- After the second region its result array is the host product of the hidden layer and the weights it was entered with. -/
theorem array_second (d : DotDims ⟨2, ![100000, 128]⟩ ⟨2, ![128, 64]⟩ ⟨2, ![100000, 64]⟩) (hd : Cert.LibDot.Plain d)
    (c : Dev nD) :
    (dat1 V c).arrAt 2 cfg1.N = productSecond V d c :=
  (dat1 V c).arrAt_eq_of_cover 2 (productSecond V d c) (fun t _ => flushed_second V d hd c t) cover_second

end Cert.KernelIdeal.RowTiles

end
-- ==== Proof.RefStages.lean ====
/-
  The reference's two matrix products. Its first (`x · W1`, [100000, 512] x [512, 128]) and its second
  (the hidden layer times `W2`, [100000, 128] x [128, 64]) both contract axis 1 of the left operand with axis 0 of the
  right one and have no batch axis: plain rows-by-columns products, whose entry (R, q) is the sum over k of
  left(R, k) * right(k, q). The four coordinate facts are the generated read-at-an-index module's.
-/
import proofs.«102432_j28398323761180_1_alg».proof.Defs
import proofs.«102432_j28398323761180_1_alg».proof.Proof.Gen.ReferenceIdeal.Run
import proofs.«102432_j28398323761180_1_alg».proof.Proof.Gen.ReferenceIdeal.Read
import proofs.«102432_j28398323761180_1_alg».proof.Proof.LibDot

namespace Cert.ReferenceIdeal.RefStages

open Cert.ReferenceIdeal Cert.ReferenceIdeal.Gen Cert.ReferenceIdeal.Read Idealize.ShloMosaic

/-- The first product's dimension numbers are those of a plain product [100000, 512] x [512, 128]. -/
theorem plain_first : Cert.LibDot.Plain (M := 100000) (K := 512) (N := 128) dot_S100000x512_S512x128_S100000x128_1_0_0_1_n_n :=
  ⟨rfl, rfl, lhs_main_v11_0, lhs_main_v11_1, rhs_main_v11_0, rhs_main_v11_1⟩

/-- The second product's dimension numbers are those of a plain product [100000, 128] x [128, 64]. -/
theorem plain_second : Cert.LibDot.Plain (M := 100000) (K := 128) (N := 64) dot_S100000x128_S128x64_S100000x64_1_0_0_1_n_n :=
  ⟨rfl, rfl, lhs_main_v49_0, lhs_main_v49_1, rhs_main_v49_0, rhs_main_v49_1⟩

end Cert.ReferenceIdeal.RefStages
-- ==== Proof.FoldHidden.lean ====
/-
  The hidden layer. The first region leaves its result array at `x · W1` (the row blocks tile it) and every other
  buffer as it found it; the second stretch of host operations — the normalised scatter-add of the product's rows along
  the edges, the self-loop term, the bias, relu — then makes the hidden layer, operation for operation the reference's
  stage of the same name, and leaves the edge data and the later arguments alone.
-/
import proofs.«102432_j28398323761180_1_alg».proof.Proof.FoldEntry
import proofs.«102432_j28398323761180_1_alg».proof.Proof.RowTiles
import proofs.«102432_j28398323761180_1_alg».proof.Proof.RefStages

set_option maxRecDepth 16384
set_option Elab.async false

noncomputable section

namespace Cert.KernelIdeal.Fold

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v10 val_main_v11 val_main_v48 val_main_v49 val_main_v85)

variable (m : (ℓ : Loc nD τ sig) → Buf (Elt Ideal) ℓ) (ρ : Dev nD → PrngReg)

/-! ## The first region -/

/-- The first region's result array is `x · W1`. -/
theorem first_product (c : Dev nD) :
    W2 m ρ c (Proc.devRef .tc main_v11) = val_main_v11 (F := Ideal) (m ((c.tc : Thread nD τ).loc main_arg0)) (m ((c.tc : Thread nD τ).loc main_arg2)) := by
  refine (W2_arr m ρ c 2).trans ?_
  rw [RowTiles.array_first (V1 m ρ) Cert.ReferenceIdeal.dot_S100000x512_S512x128_S100000x128_1_0_0_1_n_n Cert.ReferenceIdeal.RefStages.plain_first c]
  exact congrArg₂ (fun (a : FVec Ideal S100000x512 .f32) (b : FVec Ideal S512x128 .f32) =>
    Host.dotGeneral (F := Ideal) (φ₁ := .f32) (φ₂ := .f32) Cert.ReferenceIdeal.dot_S100000x512_S512x128_S100000x128_1_0_0_1_n_n none a b) (entry_x m ρ c) (entry_w1 m ρ c)

/-! ## What the first region leaves as it found it -/

theorem after_first_src (c : Dev nD) : W2 m ρ c (Proc.devRef .tc main_v1) = val_main_v1 (F := Ideal) (m ((c.tc : Thread nD τ).loc main_arg1)) :=
  (W2_of_ne m ρ c main_v1 (by decide)).trans (entry_src m ρ c)

theorem after_first_dst (c : Dev nD) : W2 m ρ c (Proc.devRef .tc main_v3) = val_main_v3 (F := Ideal) (m ((c.tc : Thread nD τ).loc main_arg1)) :=
  (W2_of_ne m ρ c main_v3 (by decide)).trans (entry_dst m ρ c)

theorem after_first_dinv (c : Dev nD) : W2 m ρ c (Proc.devRef .tc main_v10) = val_main_v10 (F := Ideal) (m ((c.tc : Thread nD τ).loc main_arg1)) :=
  (W2_of_ne m ρ c main_v10 (by decide)).trans (entry_dinv m ρ c)

theorem after_first_b1 (c : Dev nD) : W2 m ρ c (Proc.devRef .tc main_arg3) = (m ((c.tc : Thread nD τ).loc main_arg3)) :=
  (W2_of_ne m ρ c main_arg3 (by decide)).trans (entry_b1 m ρ c)

theorem after_first_w2 (c : Dev nD) : W2 m ρ c (Proc.devRef .tc main_arg4) = (m ((c.tc : Thread nD τ).loc main_arg4)) :=
  (W2_of_ne m ρ c main_arg4 (by decide)).trans (entry_w2 m ρ c)

theorem after_first_b2 (c : Dev nD) : W2 m ρ c (Proc.devRef .tc main_arg5) = (m ((c.tc : Thread nD τ).loc main_arg5)) :=
  (W2_of_ne m ρ c main_arg5 (by decide)).trans (entry_b2 m ρ c)

/-! ## The second stretch: aggregation over the edges, the self-loop term, the bias, relu -/

/-- Before relu: the aggregated, self-looped, biased first layer. -/
theorem pre_relu (c : Dev nD) :
    W3 m ρ c (Proc.devRef .tc main_v47)
      = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W2 m ρ c) (Proc.devRef .tc main_v47) = _
  after_results_simp
  rw [first_product m ρ c, after_first_src m ρ c, after_first_dst m ρ c, after_first_dinv m ρ c, after_first_b1 m ρ c]
  rfl

/-! ### Reading and writing a buffer at the type a called function declares -/

/-- A value carried to a typed reference's buffer type and back is itself. -/
theorem ofBuf_toBuf {T : BufTy} (x : StableHlo.TRef sig T) (v : T.Contents (Elt Ideal)) : x.ofBuf (x.toBuf v) = v := by
  obtain ⟨r, h, h2, h3⟩ := x
  subst h
  rfl

/-- The first layer's buffer has the type relu declares for its argument, so reading it at that type changes nothing. -/
theorem ofBuf_pre_relu (h1 : main_v47.ty = (⟨S100000x128, .f32⟩ : BufTy)) (h2 : main_v47.space ≠ .host) (h3 : main_v47.isScoped = false)
    (v : main_v47.ty.Contents (Elt Ideal)) :
    (StableHlo.TRef.of (T := ⟨S100000x128, .f32⟩) main_v47 h1 h2 h3).ofBuf v = v := rfl

/-- The hidden layer's buffer has the type relu declares for its result, so writing it at that type changes nothing. -/
theorem toBuf_hidden (h1 : main_v48.ty = (⟨S100000x128, .f32⟩ : BufTy)) (h2 : main_v48.space ≠ .host) (h3 : main_v48.isScoped = false)
    (v : (⟨S100000x128, .f32⟩ : BufTy).Contents (Elt Ideal)) :
    (StableHlo.TRef.of (T := ⟨S100000x128, .f32⟩) main_v48 h1 h2 h3).toBuf v = v := rfl

/-- The hidden layer: relu of it (the called function's three operations). -/
theorem hidden (c : Dev nD) :
    W4 m ρ c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1_1 (W3 m ρ c) (Proc.devRef .tc main_v48) = _
  have before := pre_relu m ρ c
  generalize W3 m ρ c = X at before ⊢
  after_results_simp
  simp only [ofBuf_toBuf, ofBuf_pre_relu, toBuf_hidden]
  rw [before]
  rfl

theorem mid_src (c : Dev nD) : W4 m ρ c (Proc.devRef .tc main_v1) = val_main_v1 (F := Ideal) (m ((c.tc : Thread nD τ).loc main_arg1)) := by
  refine Eq.trans ?_ (after_first_src m ρ c)
  refine Eq.trans (b := W3 m ρ c (Proc.devRef .tc main_v1)) ?_ ?_
  · show StableHlo.after hostOps1_1 (W3 m ρ c) (Proc.devRef .tc main_v1) = _
    generalize W3 m ρ c = X
    after_results_simp <;> rfl
  · show StableHlo.after hostOps1 (W2 m ρ c) (Proc.devRef .tc main_v1) = _
    after_results_simp <;> rfl

theorem mid_dst (c : Dev nD) : W4 m ρ c (Proc.devRef .tc main_v3) = val_main_v3 (F := Ideal) (m ((c.tc : Thread nD τ).loc main_arg1)) := by
  refine Eq.trans ?_ (after_first_dst m ρ c)
  refine Eq.trans (b := W3 m ρ c (Proc.devRef .tc main_v3)) ?_ ?_
  · show StableHlo.after hostOps1_1 (W3 m ρ c) (Proc.devRef .tc main_v3) = _
    generalize W3 m ρ c = X
    after_results_simp <;> rfl
  · show StableHlo.after hostOps1 (W2 m ρ c) (Proc.devRef .tc main_v3) = _
    after_results_simp <;> rfl

theorem mid_dinv (c : Dev nD) : W4 m ρ c (Proc.devRef .tc main_v10) = val_main_v10 (F := Ideal) (m ((c.tc : Thread nD τ).loc main_arg1)) := by
  refine Eq.trans ?_ (after_first_dinv m ρ c)
  refine Eq.trans (b := W3 m ρ c (Proc.devRef .tc main_v10)) ?_ ?_
  · show StableHlo.after hostOps1_1 (W3 m ρ c) (Proc.devRef .tc main_v10) = _
    generalize W3 m ρ c = X
    after_results_simp <;> rfl
  · show StableHlo.after hostOps1 (W2 m ρ c) (Proc.devRef .tc main_v10) = _
    after_results_simp <;> rfl

theorem mid_w2 (c : Dev nD) : W4 m ρ c (Proc.devRef .tc main_arg4) = (m ((c.tc : Thread nD τ).loc main_arg4)) := by
  refine Eq.trans ?_ (after_first_w2 m ρ c)
  refine Eq.trans (b := W3 m ρ c (Proc.devRef .tc main_arg4)) ?_ ?_
  · show StableHlo.after hostOps1_1 (W3 m ρ c) (Proc.devRef .tc main_arg4) = _
    generalize W3 m ρ c = X
    after_results_simp <;> rfl
  · show StableHlo.after hostOps1 (W2 m ρ c) (Proc.devRef .tc main_arg4) = _
    after_results_simp <;> rfl

theorem mid_b2 (c : Dev nD) : W4 m ρ c (Proc.devRef .tc main_arg5) = (m ((c.tc : Thread nD τ).loc main_arg5)) := by
  refine Eq.trans ?_ (after_first_b2 m ρ c)
  refine Eq.trans (b := W3 m ρ c (Proc.devRef .tc main_arg5)) ?_ ?_
  · show StableHlo.after hostOps1_1 (W3 m ρ c) (Proc.devRef .tc main_arg5) = _
    generalize W3 m ρ c = X
    after_results_simp <;> rfl
  · show StableHlo.after hostOps1 (W2 m ρ c) (Proc.devRef .tc main_arg5) = _
    after_results_simp <;> rfl

end Cert.KernelIdeal.Fold

end
-- ==== Proof.FoldResult.lean ====
/-
  The result. The second region leaves its result array at the hidden layer times `W2` and every other buffer as it
  found it; the last stretch of host operations aggregates along the edges again and adds the second bias. So the result
  buffer ends at the reference's last stage of the argument arrays.
-/
import proofs.«102432_j28398323761180_1_alg».proof.Proof.FoldHidden

set_option maxRecDepth 16384
set_option Elab.async false

noncomputable section

namespace Cert.KernelIdeal.Fold

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v10 val_main_v11 val_main_v48 val_main_v49 val_main_v85)

variable (m : (ℓ : Loc nD τ sig) → Buf (Elt Ideal) ℓ) (ρ : Dev nD → PrngReg)

/-! ## The second region -/

/-- The second region's result array is the hidden layer times `W2`. -/
theorem second_product (c : Dev nD) :
    W5 m ρ c (Proc.devRef .tc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W5_arr m ρ c 2).trans ?_
  rw [RowTiles.array_second (V4 m ρ) Cert.ReferenceIdeal.dot_S100000x128_S128x64_S100000x64_1_0_0_1_n_n Cert.ReferenceIdeal.RefStages.plain_second c]
  exact congrArg₂ (fun (a : FVec Ideal S100000x128 .f32) (b : FVec Ideal S128x64 .f32) =>
    Host.dotGeneral (F := Ideal) (φ₁ := .f32) (φ₂ := .f32) Cert.ReferenceIdeal.dot_S100000x128_S128x64_S100000x64_1_0_0_1_n_n none a b) (hidden m ρ c) (mid_w2 m ρ c)

/-! ## What the second region leaves as it found it -/

theorem late_src (c : Dev nD) : W5 m ρ c (Proc.devRef .tc main_v1) = val_main_v1 (F := Ideal) (m ((c.tc : Thread nD τ).loc main_arg1)) :=
  (W5_of_ne m ρ c main_v1 (by decide)).trans (mid_src m ρ c)

theorem late_dst (c : Dev nD) : W5 m ρ c (Proc.devRef .tc main_v3) = val_main_v3 (F := Ideal) (m ((c.tc : Thread nD τ).loc main_arg1)) :=
  (W5_of_ne m ρ c main_v3 (by decide)).trans (mid_dst m ρ c)

theorem late_dinv (c : Dev nD) : W5 m ρ c (Proc.devRef .tc main_v10) = val_main_v10 (F := Ideal) (m ((c.tc : Thread nD τ).loc main_arg1)) :=
  (W5_of_ne m ρ c main_v10 (by decide)).trans (mid_dinv m ρ c)

theorem late_b2 (c : Dev nD) : W5 m ρ c (Proc.devRef .tc main_arg5) = (m ((c.tc : Thread nD τ).loc main_arg5)) :=
  (W5_of_ne m ρ c main_arg5 (by decide)).trans (mid_b2 m ρ c)

/-! ## The last stretch: aggregation again, the second bias -/

/-- The result buffer ends at the reference's last stage of the argument arrays. -/
theorem result (c : Dev nD) :
    W6 m ρ c (Proc.devRef .tc main_v85) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W5 m ρ c) (Proc.devRef .tc main_v85) = _
  after_results_simp
  rw [second_product m ρ c, late_src m ρ c, late_dst m ρ c, late_dinv m ρ c, late_b2 m ρ c]
  rfl

end Cert.KernelIdeal.Fold

end
-- ==== Proof.lean ====
/-
  A two-layer graph convolution over 100000 nodes and 1600000 edges: each layer is a dense product `h · W`, a
  degree-normalised scatter-add of the rows of that product along the edges, a self-loop term, a bias, and (after the
  first layer) relu. The kernel computes the two dense products in row blocks of 2000 on the TensorCore (operands
  rounded to bf16, accumulated in f32 from zero) and everything else with host operations; the reference computes the
  products with the host's own matrix product and everything else with the same host operations, literal for literal.

  On the extended reals rounding is the identity and a product into a zero accumulator is the plain sum over the
  contracted index, so a row block's product at (r, q) is the sum over k of x(2000·t + r, k) * W(k, q): exactly entry
  (2000·t + r, q) of the whole product. The 50 row blocks tile the 100000 rows, hence each region leaves its result array
  at the host product of its operands, and the kernel's result buffer ends at the reference's last stage of the same
  argument arrays. No law of arithmetic beyond "the same sum" is used, so the finiteness of the inputs is never opened.

  The three frames: the two kernels' are the generated ones; the reference's is its generated run with the result
  dropped. The idealization rewrote nothing, so the sanctioned-idealization claim is trivial.
-/
import proofs.«102432_j28398323761180_1_alg».proof.Defs
import proofs.«102432_j28398323761180_1_alg».proof.Proof.Gen.Kernel
import proofs.«102432_j28398323761180_1_alg».proof.Proof.Gen.Kernel.Skeleton
import proofs.«102432_j28398323761180_1_alg».proof.Proof.Gen.Kernel.Launch
import proofs.«102432_j28398323761180_1_alg».proof.Proof.Gen.Kernel.Points
import proofs.«102432_j28398323761180_1_alg».proof.Proof.Gen.Kernel.Frame
import proofs.«102432_j28398323761180_1_alg».proof.Proof.Gen.KernelIdeal
import proofs.«102432_j28398323761180_1_alg».proof.Proof.Gen.KernelIdeal.Skeleton
import proofs.«102432_j28398323761180_1_alg».proof.Proof.Gen.KernelIdeal.Launch
import proofs.«102432_j28398323761180_1_alg».proof.Proof.Gen.KernelIdeal.Points
import proofs.«102432_j28398323761180_1_alg».proof.Proof.Gen.KernelIdeal.Frame
import proofs.«102432_j28398323761180_1_alg».proof.Proof.Gen.ReferenceIdeal
import proofs.«102432_j28398323761180_1_alg».proof.Proof.Gen.ReferenceIdeal.Run
import proofs.«102432_j28398323761180_1_alg».proof.Proof.Gen.ReferenceIdeal.Read
import proofs.«102432_j28398323761180_1_alg».proof.Proof.Gen.Pre_finite_inputs
import proofs.«102432_j28398323761180_1_alg».proof.Proof.KernelRun
import proofs.«102432_j28398323761180_1_alg».proof.Proof.FoldResult
import proofs.«102432_j28398323761180_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's last stage of the kernel's argument arrays: the
    kernel by its run and the fold through its segments, the reference by its run, the arguments agreeing. -/
theorem algebraic : Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v85_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
